-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x8192 : Shape := ⟨2, ![8192, 8192]⟩
abbrev S8192x1 : Shape := ⟨2, ![8192, 1]⟩
abbrev S8192 : Shape := ⟨1, ![8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x1 : S_.BroadcastsInDim S8192x1 (![] : Fin 0 → Fin S8192x1.rank)
  reducesTo_S8192x1_S_d0_1 : S8192x1.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S16x8192 .f32) (main_arg1 : FVec F S8192x8192 .f32) (main_arg2 : FVec F S8192x1 .f32) (main_arg3 : FVec F S8192x1 .f32) (main_arg4 : FVec F S8192 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_v13 main_v16
-- ==== Kernel.lean ====
abbrev S16x8192 : Shape := ⟨2, ![16, 8192]⟩
abbrev S8192x8192 : Shape := ⟨2, ![8192, 8192]⟩
abbrev S8192x1 : Shape := ⟨2, ![8192, 1]⟩
abbrev S8192 : Shape := ⟨1, ![8192]⟩
abbrev S_ : Shape := ⟨0, ![]⟩
abbrev S16 : Shape := ⟨1, ![16]⟩
abbrev S16x1 : Shape := ⟨2, ![16, 1]⟩
abbrev S1x8192 : Shape := ⟨2, ![1, 8192]⟩
abbrev S512x8192 : Shape := ⟨2, ![512, 8192]⟩
abbrev S1x512 : Shape := ⟨2, ![1, 512]⟩
abbrev S16x512 : Shape := ⟨2, ![16, 512]⟩

abbrev nBuf : Space → Nat
  | .hbm => 13
  | .vmem => 12
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192x1, .f32⟩
  | .hbm, ⟨3, _⟩ => ⟨S8192x1, .f32⟩
  | .hbm, ⟨4, _⟩ => ⟨S8192, .f32⟩
  | .hbm, ⟨5, _⟩ => ⟨S_, .f32⟩
  | .hbm, ⟨6, _⟩ => ⟨S16, .f32⟩
  | .hbm, ⟨7, _⟩ => ⟨S16x1, .f32⟩
  | .hbm, ⟨8, _⟩ => ⟨S16x8192, .bf16⟩
  | .hbm, ⟨9, _⟩ => ⟨S1x8192, .f32⟩
  | .hbm, ⟨10, _⟩ => ⟨S1x8192, .f32⟩
  | .hbm, ⟨11, _⟩ => ⟨S1x8192, .f32⟩
  | .hbm, ⟨12, _⟩ => ⟨S16x8192, .f32⟩
  | .local _ .vmem, ⟨0, _⟩ => ⟨S16x8192, .bf16⟩
  | .local _ .vmem, ⟨1, _⟩ => ⟨S512x8192, .f32⟩
  | .local _ .vmem, ⟨2, _⟩ => ⟨S512x8192, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S16x1, .f32⟩
  | .local _ .vmem, ⟨10, _⟩ => ⟨S16x512, .f32⟩
  | .local _ .vmem, ⟨11, _⟩ => ⟨S16x512, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S16x8192_S16_d1 : S16x8192.ReducesTo [1] S16
  h_S_ : 0 < S_.numel
  bcast_S16_S16x1_0 : S16.BroadcastsInDim S16x1 (![0] : Fin 1 → Fin S16x1.rank)
  bitsLt_bf16_f32 : FTy.bits .bf16 < FTy.bits .f32
  shapeCasts_S8192x1_S1x8192 : S8192x1.ShapeCasts S1x8192
  shapeCasts_S8192_S1x8192 : S8192.ShapeCasts S1x8192
  inb_S512x8192_S512x8192_0_0 : ∀ a, (![0, 0] : Fin 2 → Nat) a + S512x8192.size a ≤ S512x8192.size a
  h_S512x8192 : 0 < S512x8192.numel
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x512 : S16x1.Broadcasts S16x512
  inb_S16x512_S16x512_0_0 : ∀ a, (![0, 0] : Fin 2 → Nat) a + S16x512.size a ≤ S16x512.size a
  h_S16x512 : 0 < S16x512.numel
  dot_S16x8192_S512x8192_S16x512_1_1_0_0_n_n_wf : DotDims.WF S16x8192 S512x8192 S16x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .bf16 = 32 ∨ (Rect.block (s := S16x8192) S16x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S8192x8192.size a
  hwx0_1 : ∀ i : grid0.Coords, EltTy.bits .f32 = 32 ∨ (Rect.block (s := S8192x8192) S512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x512.size a ≤ S16x8192.size a
  hwx0_6 : ∀ i : grid0.Coords, EltTy.bits .f32 = 32 ∨ (Rect.block (s := S16x8192) S16x512.size (cc0_transform_6 i) (hinb0_6 i)).WholeWords (EltTy.packing .f32)

variable [Facts₀]

def dot_S16x8192_S512x8192_S16x512_1_1_0_0_n_n : DotDims S16x8192 S512x8192 S16x512 where
  lhsContracting := [1]
  rhsContracting := [1]
  lhsNonContracting := [0]
  rhsNonContracting := [0]
  lhsBatch := []
  rhsBatch := []
  wf := dot_S16x8192_S512x8192_S16x512_1_1_0_0_n_n_wf

abbrev win0_0 : Pipeline.Window sig grid0 :=
  Pipeline.Window.ofSpec (Memref.whole main_v2) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S16x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x8192 : Shape := ⟨2, ![8192, 8192]⟩
abbrev S8192x1 : Shape := ⟨2, ![8192, 1]⟩
abbrev S8192 : Shape := ⟨1, ![8192]⟩
abbrev S1x8192 : Shape := ⟨2, ![1, 8192]⟩

abbrev nBuf : Space → Nat
  | .hbm => 13
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192x1, .f32⟩
  | .hbm, ⟨3, _⟩ => ⟨S8192x1, .f32⟩
  | .hbm, ⟨4, _⟩ => ⟨S8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S16x8192, .f32⟩
  | .hbm, ⟨10, _⟩ => ⟨S1x8192, .f32⟩
  | .hbm, ⟨11, _⟩ => ⟨S16x8192, .f32⟩
  | .hbm, ⟨12, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  dot_S16x8192_S8192x8192_S16x8192_1_1_0_0_n_n_wf : DotDims.WF S16x8192 S8192x8192 S16x8192 [1] [1] [0] [0] [] []

variable [Facts₀]

def dot_S16x8192_S8192x8192_S16x8192_1_1_0_0_n_n : DotDims S16x8192 S8192x8192 S16x8192 where
  lhsContracting := [1]
  rhsContracting := [1]
  lhsNonContracting := [0]
  rhsNonContracting := [0]
  lhsBatch := []
  rhsBatch := []
  wf := dot_S16x8192_S8192x8192_S16x8192_1_1_0_0_n_n_wf

class Facts : Prop extends Facts₀ where

variable [Facts]
-- ==== Proof.TilePayload.lean ====
/-
  One grid step's arithmetic, read at one entry.  A step holds the whole input x (16 rows of length 8192), a tile of
  512 weight rows, and the matching 512 entries of the scale, the mean and the bias, each laid out as one row of 512
  lanes, and the 16 row sums of x laid out as one column.  Entry (p, q) of the 16 × 512 tile it stores is

      (∑ₖ x[p, k] · w[q, k]) · scale[q] + rowsum[p] · mean[q] + bias[q] :

  the matrix product contracts the two trailing axes and accumulates into zero, so it is the plain sum of products; the
  three rows are repeated down the 16 rows and the column across the 512 lanes; a change of float format is the identity
  on the extended reals.
-/
import proofs.«163052_j24876450578671_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The record of the tile's matrix product: x's axis 1 against the weight tile's axis 1. -/
abbrev D := dot_S16x8192_S512x8192_S16x512_1_1_0_0_n_n

theorem lhs_row (j : S16x512.Idx) (r : D.contr.Idx) : (D.lhsIdx j r 0).val = (j 0).val := by
  unfold DotDims.lhsIdx
  rw [dif_neg (show ¬(0 : Fin S16x8192.rank) ∈ D.lhsBatch by decide), dif_pos (show (0 : Fin S16x8192.rank) ∈ D.lhsNonContracting by decide)]
  rfl
theorem lhs_contr (j : S16x512.Idx) (r : D.contr.Idx) : (D.lhsIdx j r 1).val = (r ⟨0, by decide⟩).val :=
  D.lhsIdx_val_of_single rfl j r
theorem rhs_row (j : S16x512.Idx) (r : D.contr.Idx) : (D.rhsIdx j r 0).val = (j 1).val := by
  unfold DotDims.rhsIdx
  rw [dif_neg (show ¬(0 : Fin S512x8192.rank) ∈ D.rhsBatch by decide), dif_pos (show (0 : Fin S512x8192.rank) ∈ D.rhsNonContracting by decide)]
  rfl
theorem rhs_contr (j : S16x512.Idx) (r : D.contr.Idx) : (D.rhsIdx j r 1).val = (r ⟨0, by decide⟩).val :=
  D.rhsIdx_val_of_single rfl j r

/-- The tile's matrix product into a zero accumulator, at entry (p, q): the sum over k of x[p, k] · w[q, k]. -/
theorem product_at (xs : FVec Ideal S16x8192 .bf16) (ws : FVec Ideal S512x8192 .bf16) (p : Fin 16) (q : Fin 512) :
    matmul D none xs ws (constant S16x512 .f32 0x00000000#32) (ix2 p q) = ∑ k : Fin 8192, xs (ix2 p k) * ws (ix2 q k) := by
  refine (Ideal.matmul_constant_zero_apply D none xs ws (ix2 p q)).trans ?_
  rw [← Equiv.sum_comp (contrEquiv1 D 8192 rfl rfl).symm]
  refine Finset.sum_congr rfl fun k _ => ?_
  have hk := contrEquiv1_symm_val D 8192 rfl rfl k
  have el : D.lhsIdx (ix2 p q) ((contrEquiv1 D 8192 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 8192 rfl rfl).symm k) = ix2 q k := funext fun a => Fin.ext (by
    match a with
    | ⟨0, _⟩ => exact rhs_row _ _
    | ⟨1, _⟩ => exact (rhs_contr _ _).trans hk)
  rw [el, er]

/-- A column of 16 entries repeated across 512 lanes reads, at (p, q), its entry p. -/
theorem column_across (v : (⟨2, ![16, 1]⟩ : Shape).Idx → EReal) (h : (⟨2, ![16, 1]⟩ : Shape).Broadcasts ⟨2, ![16, 512]⟩)
    (p : Fin 16) (q : Fin 512) : broadcastTo ⟨2, ![16, 512]⟩ v h (ix2 p q) = v (ix2 p (0 : Fin 1)) := by
  refine broadcastTo_apply v h (ix2 p q) (ix2 p (0 : Fin 1)) fun ax => ?_
  match ax with
  | ⟨0, _⟩ =>
    show p.val = if (16 : Nat) = 1 then 0 else p.val
    rw [if_neg (by decide)]
  | ⟨1, _⟩ => rfl

/-- Entry (p, q) of the tile a step stores, from the step's six loaded blocks. -/
theorem payload_at (w : Vec Ideal S512x8192 .f32) (x : Vec Ideal S16x8192 .bf16) (s : Vec Ideal S1x512 .f32)
    (rs : Vec Ideal S16x1 .f32) (mu : Vec Ideal S1x512 .f32) (b : Vec Ideal S1x512 .f32) (p : Fin 16) (q : Fin 512) :
    k0_pay1 w x s rs mu b (ix2 p q)
      = (∑ k : Fin 8192, x (ix2 p k) * w (ix2 q k)) * s (ix2 (0 : Fin 1) q) + rs (ix2 p (0 : Fin 1)) * mu (ix2 (0 : Fin 1) q)
        + b (ix2 (0 : Fin 1) q) := by
  unfold k0_pay1
  show matmul (F := Ideal) D none (shapeCast S16x8192 (x : FVec Ideal S16x8192 .bf16) shapeCasts_S16x8192_S16x8192)
          (truncf (F := Ideal) .bf16 (w : FVec Ideal S512x8192 .f32) bitsLt_bf16_f32) (constant (F := Ideal) S16x512 .f32 0x00000000#32) (ix2 p q)
        * broadcastTo S16x512 (shapeCast S1x512 s shapeCasts_S1x512_S1x512) broadcasts_S1x512_S16x512 (ix2 p q)
      + broadcastTo S16x512 (shapeCast S16x1 rs shapeCasts_S16x1_S16x1) broadcasts_S16x1_S16x512 (ix2 p q)
        * broadcastTo S16x512 (shapeCast S1x512 mu shapeCasts_S1x512_S1x512) broadcasts_S1x512_S16x512 (ix2 p q)
      + broadcastTo S16x512 (shapeCast S1x512 b shapeCasts_S1x512_S1x512) broadcasts_S1x512_S16x512 (ix2 p q) = _
  rw [product_at, shapeCast_self, shapeCast_self, shapeCast_self, shapeCast_self, shapeCast_self,
    broadcastTo_1b_ab_apply, broadcastTo_1b_ab_apply, broadcastTo_1b_ab_apply, column_across]
  rfl

end Cert.KernelIdeal.Tile

end
-- ==== Proof.AffineFold.lean ====
/-
  A dense layer whose weight row o is stored standardized: W[o, k] = w[o, k] · s[o] + μ[o].
  Its output row entry is  ∑ₖ x[k] · (w[o, k] · s[o] + μ[o]).  Distributing the sum over the bracket
  gives  (∑ₖ x[k] · w[o, k]) · s[o] + (∑ₖ x[k]) · μ[o]:  one matrix product with the raw weights, rescaled,
  plus the row sum of the input times the mean.  On the extended reals distributivity and pulling a factor
  out of a sum fail at ±∞, so the identity is proved for FINITE entries: each is the image of a real, the
  coercion is pushed outwards through products and sums, and the identity is the real one.
-/
import Mathlib.Data.EReal.Basic
import Mathlib.Algebra.BigOperators.Ring.Finset
import Mathlib.Tactic.Ring

open scoped BigOperators

namespace Cert.AffineFold

/-- The coercion of the reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For finite entries, the sum of x·(w·s + μ) is (∑ x·w)·s + (∑ x)·μ. -/
theorem sum_mul_affine {ι : Type*} [Fintype ι] (x w : ι → EReal) (s μ : EReal)
    (hx : ∀ k, ∃ r : ℝ, x k = (r : EReal)) (hw : ∀ k, ∃ r : ℝ, w k = (r : EReal))
    (hs : ∃ r : ℝ, s = (r : EReal)) (hμ : ∃ r : ℝ, μ = (r : EReal)) :
    (∑ k, x k * w k) * s + (∑ k, x k) * μ = ∑ k, x k * (w k * s + μ) := by
  choose xr hxr using hx
  choose wr hwr using hw
  obtain ⟨sr, rfl⟩ := hs
  obtain ⟨μr, rfl⟩ := hμ
  simp only [hxr, hwr, ← EReal.coe_mul, ← EReal.coe_add, ← coe_sum]
  refine congrArg _ ?_
  rw [Finset.sum_mul, Finset.sum_mul, ← Finset.sum_add_distrib]
  exact Finset.sum_congr rfl fun k _ => by ring

end Cert.AffineFold
-- ==== Proof.Spec.lean ====
/-
  The layer as one function of its five arrays: x (16 × 8192), the stored weights w (8192 × 8192), the per-row scale
  and mean (8192 × 1 each) and the bias (8192).  Two spellings of output entry (p, q):

    direct   ∑ₖ x[p, k] · (w[q, k] · scale[q] + mean[q]) + bias[q]        — rebuild the weight row, then contract;
    folded   (∑ₖ x[p, k] · w[q, k]) · scale[q] + (∑ₖ x[p, k]) · mean[q] + bias[q]   — contract the stored row, then rescale.

  They agree when x, w, scale and mean are finite (the bias is only added, on both sides, and may be anything).
-/
import Idealize.ShloMosaic.Lib.ValueIdx
import proofs.«163052_j24876450578671_2_alg».proof.Proof.AffineFold

noncomputable section

namespace Cert.StdLinear

open Idealize.ShloMosaic Idealize.ShloMosaic.ValueIdx

abbrev Inp := (⟨2, ![16, 8192]⟩ : Shape).Idx → EReal
abbrev Wts := (⟨2, ![8192, 8192]⟩ : Shape).Idx → EReal
abbrev Col := (⟨2, ![8192, 1]⟩ : Shape).Idx → EReal
abbrev Bias := (⟨1, ![8192]⟩ : Shape).Idx → EReal

/-- Entry (p, q), the weight row rebuilt first. -/
def directAt (x : Inp) (w : Wts) (s mu : Col) (b : Bias) (p : Fin 16) (q : Fin 8192) : EReal :=
  (∑ k : Fin 8192, x (ix2 p k) * (w (ix2 q k) * s (ix2 q (0 : Fin 1)) + mu (ix2 q (0 : Fin 1)))) + b (ix1 q)

/-- Entry (p, q), the stored row contracted first. -/
def foldedAt (x : Inp) (w : Wts) (s mu : Col) (b : Bias) (p : Fin 16) (q : Fin 8192) : EReal :=
  (∑ k : Fin 8192, x (ix2 p k) * w (ix2 q k)) * s (ix2 q (0 : Fin 1)) + (∑ k : Fin 8192, x (ix2 p k)) * mu (ix2 q (0 : Fin 1))
    + b (ix1 q)

def direct (x : Inp) (w : Wts) (s mu : Col) (b : Bias) : Inp := fun i => directAt x w s mu b (i 0) (i 1)
def folded (x : Inp) (w : Wts) (s mu : Col) (b : Bias) : Inp := fun i => foldedAt x w s mu b (i 0) (i 1)

/-- Every entry of an array is a real number. -/
def Finite {S : Shape} (a : S.Idx → EReal) : Prop := ∀ i, ∃ r : ℝ, a i = (r : EReal)

theorem foldedAt_eq_directAt (x : Inp) (w : Wts) (s mu : Col) (b : Bias) (hx : Finite x) (hw : Finite w) (hs : Finite s)
    (hmu : Finite mu) (p : Fin 16) (q : Fin 8192) : foldedAt x w s mu b p q = directAt x w s mu b p q := by
  unfold foldedAt directAt
  rw [AffineFold.sum_mul_affine (fun k : Fin 8192 => x (ix2 p k)) (fun k : Fin 8192 => w (ix2 q k)) _ _
    (fun k => hx _) (fun k => hw _) (hs _) (hmu _)]

theorem folded_eq_direct (x : Inp) (w : Wts) (s mu : Col) (b : Bias) (hx : Finite x) (hw : Finite w) (hs : Finite s)
    (hmu : Finite mu) : folded x w s mu b = direct x w s mu b :=
  funext fun i => foldedAt_eq_directAt x w s mu b hx hw hs hmu (i 0) (i 1)

end Cert.StdLinear

end
-- ==== Proof.TileEntry.lean ====
/-
  One grid step's tile against the layer.  Step o (of 16) holds weight rows 512·o … 512·o + 511 and the matching lanes
  of the scale, mean and bias rows; its stored entry (p, q) is therefore the folded spelling of the layer at output
  entry (p, 512·o + q) — provided the step's blocks are what they should be: x itself, the o-th band of weight rows, the
  o-th stretch of the three rows, and the column of x's row sums.
-/
import proofs.«163052_j24876450578671_2_alg».proof.Proof.TilePayload
import proofs.«163052_j24876450578671_2_alg».proof.Proof.Spec

noncomputable section

namespace Cert.KernelIdeal.Tile

open Cert.KernelIdeal Cert.KernelIdeal.Gen Idealize.ShloMosaic Idealize.ShloMosaic.ValueIdx Cert.StdLinear

/-- Entry (p, q) of the tile stored from blocks that are the r-th pieces of the arrays X, W, S, M, B (r the output
    column the entry belongs to) is the folded layer at (p, r). -/
theorem tile_entry (X : Inp) (W : Wts) (S M : Col) (B : Bias)
    (w : Vec Ideal S512x8192 .f32) (x : Vec Ideal S16x8192 .bf16) (s : Vec Ideal S1x512 .f32) (rs : Vec Ideal S16x1 .f32)
    (mu : Vec Ideal S1x512 .f32) (b : Vec Ideal S1x512 .f32) (p : Fin 16) (q : Fin 512) (r : Fin 8192)
    (hx : ∀ k : Fin 8192, x (ix2 p k) = X (ix2 p k))
    (hw : ∀ k : Fin 8192, w (ix2 q k) = W (ix2 r k))
    (hs : s (ix2 (0 : Fin 1) q) = S (ix2 r (0 : Fin 1)))
    (hrs : rs (ix2 p (0 : Fin 1)) = ∑ k : Fin 8192, X (ix2 p k))
    (hmu : mu (ix2 (0 : Fin 1) q) = M (ix2 r (0 : Fin 1)))
    (hb : b (ix2 (0 : Fin 1) q) = B (ix1 r)) :
    k0_pay1 w x s rs mu b (ix2 p q) = foldedAt X W S M B p r := by
  rw [payload_at, hs, hrs, hmu, hb]
  unfold foldedAt
  refine congrArg (fun z => z * S (ix2 r (0 : Fin 1)) + (∑ k : Fin 8192, X (ix2 p k)) * M (ix2 r (0 : Fin 1)) + B (ix1 r)) ?_
  exact Finset.sum_congr rfl fun k _ => by rw [hx k, hw k]

end Cert.KernelIdeal.Tile

end
-- ==== Proof.RegionEntry.lean ====
/-
  What the grid finds in the arrays the program prepares before it: x with its entries narrowed to the matrix unit's
  format (at the extended reals: x itself); the scale, the mean and the bias each re-laid as one row of 8192 lanes
  (entry q of the row is entry q of the column, or of the vector); and the 16 row sums of x as one column (a sum from
  the initial value zero: the plain sum over k).
-/
import proofs.«163052_j24876450578671_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The five input arrays on core `c`, as arrays of extended reals. -/
abbrev inX : S16x8192.Idx → EReal := m ((c : Thread nD τ).loc main_arg0)
abbrev inW : S8192x8192.Idx → EReal := m ((c : Thread nD τ).loc main_arg1)
abbrev inScale : S8192x1.Idx → EReal := m ((c : Thread nD τ).loc main_arg2)
abbrev inMean : S8192x1.Idx → EReal := m ((c : Thread nD τ).loc main_arg3)
abbrev inBias : S8192.Idx → EReal := m ((c : Thread nD τ).loc main_arg4)

/-- The narrowed copy of x, entry (p, k): x[p, k]. -/
theorem narrowed_at (p : Fin 16) (k : Fin 8192) :
    (V m c main_v2 : S16x8192.Idx → EReal) (ix2 p k) = inX m c (ix2 p k) := by
  have e : (V m c main_v2 : S16x8192.Idx → EReal)
      = truncf (F := Ideal) .bf16 (m ((c : Thread nD τ).loc main_arg0)) bitsLt_bf16_f32 := by
    dsimp only [Gen.V, Gen.hostOps0]; after_results
  rw [e]; rfl

/-- An 8192 × 1 column re-laid as a 1 × 8192 row: lane q is the column's entry q. -/
theorem column_as_row (v : (⟨2, ![8192, 1]⟩ : Shape).Idx → EReal) (h : (⟨2, ![8192, 1]⟩ : Shape).ShapeCasts ⟨2, ![1, 8192]⟩)
    (q : Fin 8192) : shapeCast ⟨2, ![1, 8192]⟩ v h (ix2 (0 : Fin 1) q) = v (ix2 q (0 : Fin 1)) :=
  shapeCast_apply v h _ _ (by
    rw [Shape.rowMajor_val_two, Shape.rowMajor_val_two]
    show q.val * 1 + 0 = 0 * 8192 + q.val
    omega)

/-- The scale row, lane q: scale[q]. -/
theorem scale_row_at (q : Fin 8192) :
    (V m c main_v3 : S1x8192.Idx → EReal) (ix2 (0 : Fin 1) q) = inScale m c (ix2 q (0 : Fin 1)) := by
  have e : (V m c main_v3 : S1x8192.Idx → EReal)
      = shapeCast S1x8192 (inScale m c) shapeCasts_S8192x1_S1x8192 := by
    dsimp only [Gen.V, Gen.hostOps0]; after_results; rfl
  rw [e]; exact column_as_row _ _ q

/-- The mean row, lane q: mean[q]. -/
theorem mean_row_at (q : Fin 8192) :
    (V m c main_v4 : S1x8192.Idx → EReal) (ix2 (0 : Fin 1) q) = inMean m c (ix2 q (0 : Fin 1)) := by
  have e : (V m c main_v4 : S1x8192.Idx → EReal)
      = shapeCast S1x8192 (inMean m c) shapeCasts_S8192x1_S1x8192 := by
    dsimp only [Gen.V, Gen.hostOps0]; after_results; rfl
  rw [e]; exact column_as_row _ _ q

/-- The bias row, lane q: bias[q]. -/
theorem bias_row_at (q : Fin 8192) :
    (V m c main_v5 : S1x8192.Idx → EReal) (ix2 (0 : Fin 1) q) = inBias m c (ix1 q) := by
  have e : (V m c main_v5 : S1x8192.Idx → EReal)
      = shapeCast S1x8192 (inBias m c) shapeCasts_S8192_S1x8192 := by
    dsimp only [Gen.V, Gen.hostOps0]; after_results; rfl
  rw [e]; exact shapeCast_a_1a_apply _ _ (0 : Fin 1) q

/-- The column of row sums, entry p: ∑ₖ x[p, k]. -/
theorem rowsum_at (p : Fin 16) :
    (V m c main_v1 : S16x1.Idx → EReal) (ix2 p (0 : Fin 1))
      = ∑ k : Fin 8192, inX m c (ix2 p k) := by
  have e : (V m c main_v1 : S16x1.Idx → EReal)
      = broadcastInDim S16x1 ![0] bcast_S16_S16x1_0
          (Host.reduceAdd (F := Ideal) (m ((c : Thread nD τ).loc main_arg0)) (constant (F := Ideal) S_ .f32 0x00000000#32)
            reducesTo_S16x8192_S16_d1 h_S_) := by
    dsimp only [Gen.V, Gen.hostOps0]; after_results
  rw [e]
  rw [broadcastInDim_apply _ bcast_S16_S16x1_0 _ (ix2 p (0 : Fin 1)) (ix1 p) (fun a => match a with
    | ⟨0, _⟩ => by show p.val = if (16 : Nat) = 1 then 0 else p.val; rw [if_neg (by decide)])]
  refine (Ideal.hostReduceAdd_single reducesTo_S16x8192_S16_d1 (by decide : S16x8192.Reduces [1] S16) _ _ (ix1 p)).trans ?_
  show Ideal.ofBits .f32 0x00000000#32 + ∑ k : Fin 8192, _ = _
  rw [Ideal.ofBits_zero_f32, zero_add]
  refine Finset.sum_congr rfl fun k _ => congrArg _ (funext fun a => Fin.ext ?_)
  match a with
  | ⟨0, _⟩ => rfl
  | ⟨1, _⟩ => rfl

end Cert.KernelIdeal.Entry

end
-- ==== Proof.TileToArray.lean ====
/-
  From the tiles to the whole output.  The grid has 16 steps; step o reads x whole, weight rows 512·o … 512·o + 511,
  lanes 512·o … 512·o + 511 of the scale, mean and bias rows, and the row-sum column whole, and writes columns
  512·o … 512·o + 511 of the 16 × 8192 output.  So what step o writes back is block o of ONE function of the input
  arrays — the folded spelling of the layer — and the 16 column bands cover the output: column r lies in band r / 512.
-/
import proofs.«163052_j24876450578671_2_alg».proof.Proof.Gen.KernelIdeal.Value
import proofs.«163052_j24876450578671_2_alg».proof.Proof.TileEntry
import proofs.«163052_j24876450578671_2_alg».proof.Proof.RegionEntry

noncomputable section

namespace Cert.KernelIdeal.Bands

open Cert.KernelIdeal Cert.KernelIdeal.Gen Cert.KernelIdeal.Entry Idealize.ShloMosaic Idealize.ShloMosaic.TcCoe Idealize.SL.Sem
open Idealize.ShloMosaic.Pipeline (Dat)
open Idealize.ShloMosaic.ValueIdx Cert.StdLinear

variable (m : (ℓ : Loc nD τ sig) → Buf (Elt Ideal) ℓ) (ρ : Dev nD → PrngReg)

theorem zero_offsets : (![0, 0] : Fin 2 → Nat) = fun _ => 0 := funext fun a => by fin_cases a <;> rfl

/-- The output array the run ends with, as a function of the inputs: the folded spelling of the layer. -/
abbrev result (c : Dev nD) : S16x8192.Idx → EReal := folded (inX m c) (inW m c) (inScale m c) (inMean m c) (inBias m c)

/-- Where each window's block sits at step t: x and the row sums do not move; the weights move down by one band of
    rows per step; the three rows and the output move right by one band of lanes per step. -/
theorem block_positions : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-! ## Each input block, read where the step's tile reads it -/

/-- The x block is x. -/
theorem x_block (c : Dev nD) (t : Fin cfg0.N) (p : Fin 16) (k : Fin 8192) :
    (iblk m c 0 t : Vec Ideal S16x8192 .bf16) (ix2 p k) = inX m c (ix2 p k) := by
  obtain ⟨e0, e1, -⟩ := block_positions t
  have hi : ((cfg0.win 0).blk t).view.emb (ix2 p k) = ix2 p k := funext fun a => Fin.ext (by
    match a with
    | ⟨0, _⟩ => show win0_0.index t (0 : Fin 2) * 16 + 1 * p.val = p.val; rw [e0]; omega
    | ⟨1, _⟩ => show win0_0.index t (1 : Fin 2) * 8192 + 1 * k.val = k.val; rw [e1]; omega)
  unfold iblk
  rw [View.read_apply]
  show (V m c main_v2 : S16x8192.Idx → EReal) (((cfg0.win 0).blk t).view.emb (ix2 p k)) = _
  rw [hi]
  exact narrowed_at m c p k

/-- The weight block at step t is rows 512·t … of the stored weights. -/
theorem weight_block (c : Dev nD) (t : Fin cfg0.N) (q : Fin 512) (k : Fin 8192) (r : Fin 8192) (hr : r.val = t.val * 512 + q.val) :
    (iblk m c 1 t : Vec Ideal S512x8192 .f32) (ix2 q k) = inW m c (ix2 r k) := by
  obtain ⟨-, -, e0, e1, -⟩ := block_positions t
  have hi : ((cfg0.win 1).blk t).view.emb (ix2 q k) = ix2 r k := funext fun a => Fin.ext (by
    match a with
    | ⟨0, _⟩ => show win0_1.index t (0 : Fin 2) * 512 + 1 * q.val = r.val; rw [e0, hr]; omega
    | ⟨1, _⟩ => show win0_1.index t (1 : Fin 2) * 8192 + 1 * k.val = k.val; rw [e1]; omega)
  unfold iblk
  rw [View.read_apply]
  show (V m c main_arg1 : S8192x8192.Idx → EReal) (((cfg0.win 1).blk t).view.emb (ix2 q k)) = _
  rw [hi, V_main_arg1]

/-- The scale block at step t is lanes 512·t … of the scale row. -/
theorem scale_block (c : Dev nD) (t : Fin cfg0.N) (q : Fin 512) (r : Fin 8192) (hr : r.val = t.val * 512 + q.val) :
    (iblk m c 2 t : Vec Ideal S1x512 .f32) (ix2 (0 : Fin 1) q) = inScale m c (ix2 r (0 : Fin 1)) := by
  obtain ⟨-, -, -, -, e0, e1, -⟩ := block_positions t
  have hi : ((cfg0.win 2).blk t).view.emb (ix2 (0 : Fin 1) q) = ix2 (0 : Fin 1) r := funext fun a => Fin.ext (by
    match a with
    | ⟨0, _⟩ => show win0_2.index t (0 : Fin 2) * 1 + 1 * 0 = 0; rw [e0]
    | ⟨1, _⟩ => show win0_2.index t (1 : Fin 2) * 512 + 1 * q.val = r.val; rw [e1, hr]; omega)
  unfold iblk
  rw [View.read_apply]
  show (V m c main_v3 : S1x8192.Idx → EReal) (((cfg0.win 2).blk t).view.emb (ix2 (0 : Fin 1) q)) = _
  rw [hi]
  exact scale_row_at m c r

/-- The mean block at step t is lanes 512·t … of the mean row. -/
theorem mean_block (c : Dev nD) (t : Fin cfg0.N) (q : Fin 512) (r : Fin 8192) (hr : r.val = t.val * 512 + q.val) :
    (iblk m c 3 t : Vec Ideal S1x512 .f32) (ix2 (0 : Fin 1) q) = inMean m c (ix2 r (0 : Fin 1)) := by
  obtain ⟨-, -, -, -, -, -, e0, e1, -⟩ := block_positions t
  have hi : ((cfg0.win 3).blk t).view.emb (ix2 (0 : Fin 1) q) = ix2 (0 : Fin 1) r := funext fun a => Fin.ext (by
    match a with
    | ⟨0, _⟩ => show win0_3.index t (0 : Fin 2) * 1 + 1 * 0 = 0; rw [e0]
    | ⟨1, _⟩ => show win0_3.index t (1 : Fin 2) * 512 + 1 * q.val = r.val; rw [e1, hr]; omega)
  unfold iblk
  rw [View.read_apply]
  show (V m c main_v4 : S1x8192.Idx → EReal) (((cfg0.win 3).blk t).view.emb (ix2 (0 : Fin 1) q)) = _
  rw [hi]
  exact mean_row_at m c r

/-- The bias block at step t is lanes 512·t … of the bias row. -/
theorem bias_block (c : Dev nD) (t : Fin cfg0.N) (q : Fin 512) (r : Fin 8192) (hr : r.val = t.val * 512 + q.val) :
    (iblk m c 4 t : Vec Ideal S1x512 .f32) (ix2 (0 : Fin 1) q) = inBias m c (ix1 r) := by
  obtain ⟨-, -, -, -, -, -, -, -, e0, e1, -⟩ := block_positions t
  have hi : ((cfg0.win 4).blk t).view.emb (ix2 (0 : Fin 1) q) = ix2 (0 : Fin 1) r := funext fun a => Fin.ext (by
    match a with
    | ⟨0, _⟩ => show win0_4.index t (0 : Fin 2) * 1 + 1 * 0 = 0; rw [e0]
    | ⟨1, _⟩ => show win0_4.index t (1 : Fin 2) * 512 + 1 * q.val = r.val; rw [e1, hr]; omega)
  unfold iblk
  rw [View.read_apply]
  show (V m c main_v5 : S1x8192.Idx → EReal) (((cfg0.win 4).blk t).view.emb (ix2 (0 : Fin 1) q)) = _
  rw [hi]
  exact bias_row_at m c r

/-- The row-sum block is the column of x's row sums. -/
theorem rowsum_block (c : Dev nD) (t : Fin cfg0.N) (p : Fin 16) :
    (iblk m c 5 t : Vec Ideal S16x1 .f32) (ix2 p (0 : Fin 1)) = ∑ k : Fin 8192, inX m c (ix2 p k) := by
  obtain ⟨-, -, -, -, -, -, -, -, -, -, e0, e1, -⟩ := block_positions t
  have hi : ((cfg0.win 5).blk t).view.emb (ix2 p (0 : Fin 1)) = ix2 p (0 : Fin 1) := funext fun a => Fin.ext (by
    match a with
    | ⟨0, _⟩ => show win0_5.index t (0 : Fin 2) * 16 + 1 * p.val = p.val; rw [e0]; omega
    | ⟨1, _⟩ => show win0_5.index t (1 : Fin 2) * 1 + 1 * 0 = 0; rw [e1])
  unfold iblk
  rw [View.read_apply]
  show (V m c main_v1 : S16x1.Idx → EReal) (((cfg0.win 5).blk t).view.emb (ix2 p (0 : Fin 1))) = _
  rw [hi]
  exact rowsum_at m c p

/-! ## What a step writes back, the cover, the final array -/

/-- Step t writes back band t of `result`. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1⟩ := block_positions t
  have hN : cfg0.N = 16 := N_0
  have ht : t.val < 16 := hN ▸ t.isLt
  rw [Value.flushed6]
  unfold out0_6
  rw [View.canon_unit_zero zero_offsets]
  simp only [View.ld_unit_zero (S := S512x8192) zero_offsets, View.ld_unit_zero (S := S16x8192) zero_offsets,
    View.ld_unit_zero (S := S1x512) zero_offsets, View.ld_unit_zero (S := S16x1) zero_offsets]
  funext j
  revert j
  show ∀ j : S16x512.Idx, k0_pay1 (iblk m c 1 t) (iblk m c 0 t) (iblk m c 2 t) (iblk m c 5 t) (iblk m c 3 t) (iblk m c 4 t) j
    = result m c (((cfg0.win 6).blk t).view.emb j)
  intro j
  obtain ⟨p, q, rfl⟩ : ∃ (p : Fin 16) (q : Fin 512), j = ix2 p q := ⟨j 0, j 1, eq_ix2 j⟩
  have hq : q.val < 512 := q.isLt
  let r : Fin 8192 := ⟨t.val * 512 + q.val, by omega⟩
  have hr : r.val = t.val * 512 + q.val := rfl
  have hi : ((cfg0.win 6).blk t).view.emb (ix2 p q) = ix2 p r := funext fun a => Fin.ext (by
    match a with
    | ⟨0, _⟩ => show win0_6.index t (0 : Fin 2) * 16 + 1 * p.val = p.val; rw [e0]; omega
    | ⟨1, _⟩ => show win0_6.index t (1 : Fin 2) * 512 + 1 * q.val = r.val; rw [e1, hr]; omega)
  rw [hi]
  exact Tile.tile_entry (inX m c) (inW m c) (inScale m c) (inMean m c) (inBias m c)
    (iblk m c 1 t) (iblk m c 0 t) (iblk m c 2 t) (iblk m c 5 t) (iblk m c 3 t) (iblk m c 4 t) p q r
    (fun k => x_block m c t p k) (fun k => weight_block m c t q k r hr) (scale_block m c t q r hr) (rowsum_block m c t p)
    (mean_block m c t q r hr) (bias_block m c t q r hr)

/-- An index of the output is in step t's band iff each coordinate is in the band's range. -/
theorem mem_band (t : Fin cfg0.N) (i : S16x8192.Idx) :
    i ∈ ((cfg0.win 6).blk t).view.set ↔ ∀ a : Fin 2, win0_6.index t a * S16x512.size a ≤ (i a).val ∧ (i a).val < win0_6.index t a * S16x512.size a + S16x512.size a := by
  show i ∈ ((View.whole main_v6).slice (win0_6.rect t)).set ↔ _
  rw [View.set_slice_whole, Rect.mem_set_unit]
  exact Iff.rfl

/-- Every output index lies in the band of the step numbered by its column divided by 512. -/
theorem bands_cover (i : S16x8192.Idx) : ∃ t : Fin cfg0.N, (cfg0.win 6).flush t = true ∧ i ∈ ((cfg0.win 6).blk t).view.set := by
  have hi0 : (i 0).val < 16 := (i 0).isLt
  have hi1 : (i 1).val < 8192 := (i 1).isLt
  have hN : cfg0.N = 16 := N_0
  let t : Fin cfg0.N := ⟨(i 1).val / 512, by rw [hN]; omega⟩
  have ht : t.val = (i 1).val / 512 := rfl
  obtain ⟨-, -, -, -, -, -, -, -, -, -, -, -, e0, e1⟩ := block_positions t
  refine ⟨t, flush0_6 t, ?_⟩
  rw [mem_band]
  intro a
  match a with
  | ⟨0, _⟩ => show win0_6.index t (0 : Fin 2) * 16 ≤ (i 0).val ∧ (i 0).val < win0_6.index t (0 : Fin 2) * 16 + 16; rw [e0]; omega
  | ⟨1, _⟩ => show win0_6.index t (1 : Fin 2) * 512 ≤ (i 1).val ∧ (i 1).val < win0_6.index t (1 : Fin 2) * 512 + 512; rw [e1, ht]; omega

/-- The output array after the run is `result` of the input arrays. -/
theorem final (c : Dev nD) : (dats m 0 c).arrAt 6 cfg0.N = result m c :=
  (dats m 0 c).arrAt_eq_of_cover 6 (result m c) (fun t _ => flushed_eq m c t) bands_cover

/-- The kernel program's run, read: the result array at `result` of the inputs, the inputs unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Bands

end
-- ==== Proof.ReferenceForm.lean ====
/-
  The reference program, read at one output entry.  It rebuilds every weight row, w[q, ·] · scale[q] + mean[q] (the two
  8192 × 1 columns repeated along the rows), contracts x's axis 1 against the rebuilt matrix's axis 1, and adds the
  bias repeated down the 16 rows: entry (p, q) is ∑ₖ x[p, k] · (w[q, k] · scale[q] + mean[q]) + bias[q], the direct
  spelling of the layer.
-/
import proofs.«163052_j24876450578671_2_alg».proof.Proof.Gen.ReferenceIdeal.Read
import proofs.«163052_j24876450578671_2_alg».proof.Proof.Spec

noncomputable section

namespace Cert.ReferenceIdeal.Direct

open Cert.ReferenceIdeal Cert.ReferenceIdeal.Gen Cert.ReferenceIdeal.Read Idealize.ShloMosaic Idealize.ShloMosaic.ValueIdx

/-- The reference's result at entry (p, q). -/
theorem result_at (x : (⟨S16x8192, .f32⟩ : BufTy).Contents (Elt Ideal)) (w : (⟨S8192x8192, .f32⟩ : BufTy).Contents (Elt Ideal))
    (s mu : (⟨S8192x1, .f32⟩ : BufTy).Contents (Elt Ideal)) (b : (⟨S8192, .f32⟩ : BufTy).Contents (Elt Ideal))
    (p : Fin 16) (q : Fin 8192) :
    val_main_v7 (F := Ideal) x w s mu b (ix2 p q) = Cert.StdLinear.directAt x w s mu b p q := by
  have el : ∀ k : Fin 8192, lidx_main_v4 (ix2 p q) k = ix2 p k := fun k => funext fun a => Fin.ext (by
    match a with | ⟨0, _⟩ => rfl | ⟨1, _⟩ => rfl)
  have er : ∀ k : Fin 8192, ridx_main_v4 (ix2 p q) k = ix2 q k := fun k => funext fun a => Fin.ext (by
    match a with | ⟨0, _⟩ => rfl | ⟨1, _⟩ => rfl)
  have es : ∀ k : Fin 8192, idx_main_v0 (ix2 q k) = ix2 q (0 : Fin 1) := fun k => funext fun a => Fin.ext (by
    match a with | ⟨0, _⟩ => rfl | ⟨1, _⟩ => rfl)
  have em : ∀ k : Fin 8192, idx_main_v2 (ix2 q k) = ix2 q (0 : Fin 1) := fun k => funext fun a => Fin.ext (by
    match a with | ⟨0, _⟩ => rfl | ⟨1, _⟩ => rfl)
  have eb : idx_main_v5 (idx_main_v6 (ix2 p q)) = ix1 q := funext fun a => Fin.ext (by
    match a with | ⟨0, _⟩ => rfl)
  rw [val_main_v7_apply, val_main_v4_apply, val_main_v6_apply, val_main_v5_apply, eb]
  simp only [el, er, val_main_v3_apply, val_main_v1_apply, val_main_v0_apply, val_main_v2_apply, es, em]
  rfl

/-- The reference's result array is the direct spelling of the layer. -/
theorem result_eq (x : (⟨S16x8192, .f32⟩ : BufTy).Contents (Elt Ideal)) (w : (⟨S8192x8192, .f32⟩ : BufTy).Contents (Elt Ideal))
    (s mu : (⟨S8192x1, .f32⟩ : BufTy).Contents (Elt Ideal)) (b : (⟨S8192, .f32⟩ : BufTy).Contents (Elt Ideal)) :
    val_main_v7 (F := Ideal) x w s mu b = Cert.StdLinear.direct x w s mu b := by
  funext i
  obtain ⟨p, q, rfl⟩ : ∃ (p : Fin 16) (q : Fin 8192), i = ix2 p q := ⟨i 0, i 1, eq_ix2 i⟩
  exact result_at x w s mu b p q

end Cert.ReferenceIdeal.Direct

end
-- ==== Proof.FiniteInputs.lean ====
/-
  The precondition, read back.  It is the conjunction, over the five input arrays, of "every entry a satisfies
  |a| < +∞", each a reduction by "and" of the entrywise comparison.  On the extended reals |a| = max a (−a), so
  |a| < +∞ rules out both infinities: a is a real number.  Hence every entry of every input is real.
-/
import proofs.«163052_j24876450578671_2_alg».proof.Proof.Gen.Pre_finite_inputs
import proofs.«163052_j24876450578671_2_alg».proof.Proof.Spec
import Idealize.ShloMosaic.Lib.ReduceAll
import Idealize.ShloMosaic.Lib.ValueIdx
import Idealize.ShloMosaic.PureOps.Ideal.Laws

noncomputable section

namespace Cert.Pre_finite_inputs.Real

open Cert.Pre_finite_inputs Idealize.ShloMosaic Idealize.ShloMosaic.ValueIdx

instance : Subsingleton S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value is below +∞ is a real. -/
theorem real_of_abs_lt_inf (a : EReal) (h : Ideal.cmp .olt (max a (-a)) (Ideal.ofBits .f32 0x7F800000#32) = 1#1) :
    ∃ r : ℝ, a = (r : EReal) := by
  rw [inf_word] at h
  induction a using EReal.rec with
  | bot => simp [Ideal.cmp] at h
  | top => simp [Ideal.cmp] at h
  | coe r => exact ⟨r, rfl⟩

/-- One conjunct of the precondition: if "all |a| < +∞" came out true, every entry of the array is real. -/
theorem finite_of_all {S : Shape} {axes : List (Fin S.rank)} (a : FVec Ideal S .f32) (hb : S_.BroadcastsInDim S (![] : Fin 0 → Fin S.rank))
    (hr : S.ReducesTo axes S_) (hu : 0 < S_.numel)
    (e : Host.reduce IntOp.andi (cmpf .olt (Host.absf a) (broadcastInDim S ![] hb (constant (F := Ideal) S_ .f32 0x7F800000#32)))
      (constantI S_ 1 1#1) hr hu ix0 = 1#1) : Cert.StdLinear.Finite (S := S) a := fun i =>
  real_of_abs_lt_inf (a i) (Host.reduce_andi_all _ _ hr hu ix0 e i)

variable [Facts]

/-- Under the precondition every entry of x, of the stored weights, of the scale and of the mean is a real number. -/
theorem finite_of_pre (x : FVec Ideal S16x8192 .f32) (w : FVec Ideal S8192x8192 .f32) (s mu : FVec Ideal S8192x1 .f32)
    (b : FVec Ideal S8192 .f32) (h : fn (F := Ideal) x w s mu b = fun _ => 1#1) :
    Cert.StdLinear.Finite (S := S16x8192) x ∧ Cert.StdLinear.Finite (S := S8192x8192) w
      ∧ Cert.StdLinear.Finite (S := S8192x1) s ∧ Cert.StdLinear.Finite (S := S8192x1) mu := by
  have h0 := congrFun h ix0
  dsimp only [fn, fn_part1] at h0
  obtain ⟨h1, -⟩ := IntOp.andi_eq_one.1 h0
  obtain ⟨h2, hmu⟩ := IntOp.andi_eq_one.1 h1
  obtain ⟨h3, hs⟩ := IntOp.andi_eq_one.1 h2
  obtain ⟨hx, hw⟩ := IntOp.andi_eq_one.1 h3
  exact ⟨finite_of_all x _ _ _ hx, finite_of_all w _ _ _ hw, finite_of_all s _ _ _ hs, finite_of_all mu _ _ _ hmu⟩

end Cert.Pre_finite_inputs.Real

end
-- ==== Proof.lean ====
/- A dense layer over a standardized weight matrix: out[p, q] = ∑ₖ x[p, k] · (w[q, k] · scale[q] + mean[q]) + bias[q], for x of
   16 rows and 8192 outputs.  The reference rebuilds the weights and contracts.  The kernel never rebuilds them: in 16 grid
   steps of 512 outputs each it contracts x against the stored rows, rescales by scale[q], and adds mean[q] times the row sum
   of x (summed once, before the grid) and the bias:

       out[p, q] = (∑ₖ x[p, k] · w[q, k]) · scale[q] + (∑ₖ x[p, k]) · mean[q] + bias[q].

   The two agree by distributing the sum over the bracket, which on the extended reals needs x, w, scale and mean finite
   (Proof/AffineFold.lean); the precondition says exactly that every input is finite (Proof/FiniteInputs.lean).
   Proof/Spec.lean states both spellings; Proof/ReferenceForm.lean reads the reference as the first; Proof/TilePayload.lean,
   Proof/TileEntry.lean, Proof/RegionEntry.lean and Proof/TileToArray.lean read the kernel as the second (one step's tile
   at an entry; the arrays prepared before the grid; the 16 bands of output columns covering the array).  The three programs
   run and keep their arguments by their generated runs; the idealization rewrote nothing, so it preserves trivially. -/
import proofs.«163052_j24876450578671_2_alg».proof.Defs
import proofs.«163052_j24876450578671_2_alg».proof.Proof.Gen.Kernel
import proofs.«163052_j24876450578671_2_alg».proof.Proof.Gen.Kernel.Skeleton
import proofs.«163052_j24876450578671_2_alg».proof.Proof.Gen.Kernel.Launch
import proofs.«163052_j24876450578671_2_alg».proof.Proof.Gen.Kernel.Points
import proofs.«163052_j24876450578671_2_alg».proof.Proof.Gen.Kernel.Frame
import proofs.«163052_j24876450578671_2_alg».proof.Proof.Gen.KernelIdeal
import proofs.«163052_j24876450578671_2_alg».proof.Proof.Gen.KernelIdeal.Skeleton
import proofs.«163052_j24876450578671_2_alg».proof.Proof.Gen.KernelIdeal.Launch
import proofs.«163052_j24876450578671_2_alg».proof.Proof.Gen.KernelIdeal.Points
import proofs.«163052_j24876450578671_2_alg».proof.Proof.Gen.KernelIdeal.Frame
import proofs.«163052_j24876450578671_2_alg».proof.Proof.Gen.ReferenceIdeal
import proofs.«163052_j24876450578671_2_alg».proof.Proof.Gen.Pre_finite_inputs
import proofs.«163052_j24876450578671_2_alg».proof.Proof.Gen.KernelIdeal.Value
import proofs.«163052_j24876450578671_2_alg».proof.Proof.Gen.ReferenceIdeal.Run
import proofs.«163052_j24876450578671_2_alg».proof.Proof.Gen.ReferenceIdeal.Read
import proofs.«163052_j24876450578671_2_alg».proof.Proof.TileToArray
import proofs.«163052_j24876450578671_2_alg».proof.Proof.ReferenceForm
import proofs.«163052_j24876450578671_2_alg».proof.Proof.FiniteInputs
import Idealize.ShloMosaic.Adequacy
import Idealize.ShloMosaic.Init

noncomputable section

namespace Cert.Proof

open Idealize.ShloMosaic Idealize.SL.Sem

/-- The kernel program, word for word, runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of array operations: it runs, and writes none of its arguments. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals. -/
theorem preserves : Cert.preserves_Kernel_KernelIdeal := trivial

/-- From inputs that agree and are finite, the kernel's output array is the folded spelling of the layer, the
    reference's the direct one, and the two spellings are one function. -/
theorem algebraic : Cert.algebraic_KernelIdeal_ReferenceIdeal := by
  intro m ρ m' ρ' hpre hagree
  refine ⟨fun c => Cert.KernelIdeal.Bands.result m c, Cert.KernelIdeal.Bands.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hs, hmu⟩ := Cert.Pre_finite_inputs.Real.finite_of_pre _ _ _ _ _ (hpre c)
  rw [Cert.ReferenceIdeal.Read.val_main_v7_eq, Cert.ReferenceIdeal.Direct.result_eq, (hagree c).1, (hagree c).2.1,
    (hagree c).2.2.1, (hagree c).2.2.2.1, (hagree c).2.2.2.2]
  exact (Cert.StdLinear.folded_eq_direct _ _ _ _ _ hx hw hs hmu).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
